-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x1 : Shape := ⟨2, ![4096, 1]⟩
abbrev S1x4096 : Shape := ⟨2, ![1, 4096]⟩
abbrev S512x1024 : Shape := ⟨2, ![512, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S4096x1, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S4096x1 : S4096.ShapeCasts S4096x1
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .f32 = 32 ∨ (Rect.block (s := S8192x4096) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point leaves behind, as values.

  The body keeps a running [512, 1024] accumulator in a scratch buffer. At every point it replaces the accumulator by
  "accumulator + (x block) · (dequantized weight block)ᵀ" (the payload `k0_pay2`). At the first point of a reduction run
  it first overwrites the accumulator with zeros (`k0_pay1`), so the step starts from the zero block; at the last point it
  additionally writes "accumulator + bias row" (`k0_pay3`) into the output block. Each statement below reads the stores the
  run found for one case back as that payload of the blocks the point was handed.
-/
import proofs.«150036_j6133213299350_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem offsets_zero : (![0, 0] : Fin 2 → Nat) = fun _ => 0 := funext fun a => by fin_cases a <;> rfl

/-- A middle point of a run (neither first nor last): the accumulator `acc` becomes the step applied to it. -/
theorem scratch_mid (c : Dev nD) (i : grid0.Coords) (a3 : Memref sig .tc .vmem S512x1024 .f32) (h3 : a3.IsWhole)
    (a4 : Memref sig .tc .vmem S1024x1024 .i32) (h4 : a4.IsWhole) (a5 : Memref sig .tc .vmem S1024x1 .f32) (h5 : a5.IsWhole)
    (a6 : Memref sig .tc .vmem S1x1024 .f32) (h6 : a6.IsWhole) (a7 : Memref sig .tc .vmem S512x1024 .f32) (h7 : a7.IsWhole)
    (a8 : Memref sig .tc .vmem S512x1024 .f32) (h8 : a8.IsWhole) (hc0 : ¬cond0_0 i) (hc1 : ¬cond0_1 i)
    (x0 : Vec F S512x1024 .f32) (x1 : Vec F S1024x1024 .i32) (x2 : Vec F S1024x1 .f32) (x3 : Vec F S1x1024 .f32)
    (acc : Vec F S512x1024 .f32) :
    sout0_B_0 c i a3 h3 a4 h4 a5 h5 a6 h6 a7 h7 a8 h8 hc0 hc1 x0 x1 x2 x3 acc = k0_pay2 x0 x1 x2 acc := by
  unfold sout0_B_0
  rw [View.read_writes_eq_canon _ _ _ (scover0_B_0 c i a3 h3 a4 h4 a5 h5 a6 h6 a7 h7 a8 h8 hc0 hc1 x0 x1 x2 x3 acc)]
  unfold kernelRun0_B
  dsimp only
  rw [View.canon_unit_zero offsets_zero]
  simp only [View.readAt_eq_ld, h3.read_unread, h4.read_unread, h5.read_unread, h6.read_unread, h8.read_unread,
    View.ld_unit_zero (S := S512x1024) offsets_zero, View.ld_unit_zero (S := S1024x1024) offsets_zero,
    View.ld_unit_zero (S := S1024x1) offsets_zero, View.ld_unit_zero (S := S1x1024) offsets_zero]

/-- The last point of a run leaves the same stepped accumulator in the scratch … -/
theorem scratch_last (c : Dev nD) (i : grid0.Coords) (a3 : Memref sig .tc .vmem S512x1024 .f32) (h3 : a3.IsWhole)
    (a4 : Memref sig .tc .vmem S1024x1024 .i32) (h4 : a4.IsWhole) (a5 : Memref sig .tc .vmem S1024x1 .f32) (h5 : a5.IsWhole)
    (a6 : Memref sig .tc .vmem S1x1024 .f32) (h6 : a6.IsWhole) (a7 : Memref sig .tc .vmem S512x1024 .f32) (h7 : a7.IsWhole)
    (a8 : Memref sig .tc .vmem S512x1024 .f32) (h8 : a8.IsWhole) (hc0 : ¬cond0_0 i) (hc1 : cond0_1 i)
    (x0 : Vec F S512x1024 .f32) (x1 : Vec F S1024x1024 .i32) (x2 : Vec F S1024x1 .f32) (x3 : Vec F S1x1024 .f32)
    (acc : Vec F S512x1024 .f32) :
    sout0_C_0 c i a3 h3 a4 h4 a5 h5 a6 h6 a7 h7 a8 h8 hc0 hc1 x0 x1 x2 x3 acc = k0_pay2 x0 x1 x2 acc := by
  unfold sout0_C_0
  rw [View.read_writes_eq_canon _ _ _ (scover0_C_0 c i a3 h3 a4 h4 a5 h5 a6 h6 a7 h7 a8 h8 hc0 hc1 x0 x1 x2 x3 acc)]
  unfold kernelRun0_C
  dsimp only
  sl_unfold_words
  rw [View.canon_unit_zero offsets_zero]
  simp only [View.readAt_eq_ld, h3.read_unread, h4.read_unread, h5.read_unread, h6.read_unread, h8.read_unread,
    View.ld_unit_zero (S := S512x1024) offsets_zero, View.ld_unit_zero (S := S1024x1024) offsets_zero,
    View.ld_unit_zero (S := S1024x1) offsets_zero, View.ld_unit_zero (S := S1x1024) offsets_zero]

/-- … and writes that accumulator plus the bias row into the output block. -/
theorem out_last (c : Dev nD) (i : grid0.Coords) (a3 : Memref sig .tc .vmem S512x1024 .f32) (h3 : a3.IsWhole)
    (a4 : Memref sig .tc .vmem S1024x1024 .i32) (h4 : a4.IsWhole) (a5 : Memref sig .tc .vmem S1024x1 .f32) (h5 : a5.IsWhole)
    (a6 : Memref sig .tc .vmem S1x1024 .f32) (h6 : a6.IsWhole) (a7 : Memref sig .tc .vmem S512x1024 .f32) (h7 : a7.IsWhole)
    (a8 : Memref sig .tc .vmem S512x1024 .f32) (h8 : a8.IsWhole) (hc0 : ¬cond0_0 i) (hc1 : cond0_1 i)
    (x0 : Vec F S512x1024 .f32) (x1 : Vec F S1024x1024 .i32) (x2 : Vec F S1024x1 .f32) (x3 : Vec F S1x1024 .f32)
    (acc : Vec F S512x1024 .f32) :
    out0_C_4 c i a3 h3 a4 h4 a5 h5 a6 h6 a7 h7 a8 h8 hc0 hc1 x0 x1 x2 x3 acc = k0_pay3 (k0_pay2 x0 x1 x2 acc) x3 := by
  unfold out0_C_4
  rw [View.read_writes_eq_canon _ _ _ (cover0_C_4 c i a3 h3 a4 h4 a5 h5 a6 h6 a7 h7 a8 h8 hc0 hc1 x0 x1 x2 x3 acc)]
  unfold kernelRun0_C
  dsimp only
  sl_unfold_words
  rw [View.canon_unit_zero offsets_zero, View.readCov_unit_zero (S := S512x1024) _ offsets_zero]
  simp only [View.readAt_eq_ld, h3.read_unread, h4.read_unread, h5.read_unread, h6.read_unread, h8.read_unread,
    View.ld_unit_zero (S := S512x1024) offsets_zero, View.ld_unit_zero (S := S1024x1024) offsets_zero,
    View.ld_unit_zero (S := S1024x1) offsets_zero, View.ld_unit_zero (S := S1x1024) offsets_zero]

/-- The first point of a run: the zero block is stored, read back, and stepped. -/
theorem scratch_first (c : Dev nD) (i : grid0.Coords) (a3 : Memref sig .tc .vmem S512x1024 .f32) (h3 : a3.IsWhole)
    (a4 : Memref sig .tc .vmem S1024x1024 .i32) (h4 : a4.IsWhole) (a5 : Memref sig .tc .vmem S1024x1 .f32) (h5 : a5.IsWhole)
    (a6 : Memref sig .tc .vmem S1x1024 .f32) (h6 : a6.IsWhole) (a7 : Memref sig .tc .vmem S512x1024 .f32) (h7 : a7.IsWhole)
    (a8 : Memref sig .tc .vmem S512x1024 .f32) (h8 : a8.IsWhole) (hc0 : cond0_0 i) (hc1 : ¬cond0_1 i)
    (x0 : Vec F S512x1024 .f32) (x1 : Vec F S1024x1024 .i32) (x2 : Vec F S1024x1 .f32) (x3 : Vec F S1x1024 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x1024) offsets_zero, View.readCov_unit_zero (S := S512x1024) _ offsets_zero]
  simp only [View.readAt_eq_ld, h3.read_unread, h4.read_unread, h5.read_unread, h6.read_unread, h8.read_unread,
    View.ld_unit_zero (S := S512x1024) offsets_zero, View.ld_unit_zero (S := S1024x1024) offsets_zero,
    View.ld_unit_zero (S := S1024x1) offsets_zero, View.ld_unit_zero (S := S1x1024) offsets_zero]

end Cert.KernelIdeal.Pieces

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.Payload.lean ====
/-
  The body's three payloads, read at one entry over the extended reals.

  The zero block is zero everywhere. The step adds to the accumulator's entry `(r, c)` the dot product, over the 1024
  positions of the current run, of row `r` of the activation block with row `c` of the dequantized weight block — the
  weight block's entry `(c, k)` being its integer read signed times the scale of row `c`; the matrix product contracts the
  SECOND axis of both operands, so no transpose appears. Rounding to a 16-bit format is the identity here. The epilogue adds
  the bias row's entry `c`.
-/
import proofs.«150036_j6133213299350_1_alg».proof.Proof.Gen.KernelIdeal.Skeleton
import proofs.«150036_j6133213299350_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The zero block reads the zero word everywhere. -/
theorem zero_block_apply (y : S512x1024.Idx) : k0_pay1 (F := Ideal) y = Ideal.ofBits .f32 0x00000000#32 := by
  unfold k0_pay1
  simp only [shapeCast_self]
  rfl

/-! ### The matrix product's operand indices: it contracts axis 1 of both operands -/

theorem lhs_row (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_pos (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_row (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_pos (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of an activation block with a weight block, into the zero block, at `(r, c)`: the sum over the run's
    positions `k` of `lhs[r, k] · rhs[c, k]`. -/
theorem product_apply (lhs : FVec Ideal S512x1024 .bf16) (rhs : FVec Ideal S1024x1024 .bf16) (r : Fin 512) (c : Fin 1024) :
    FloatOps.matmul dot_S512x1024_S1024x1024_S512x1024_1_1_0_0_n_n none lhs rhs (constant (F := Ideal) S512x1024 .f32 0x00000000#32) (ix2 r c)
      = ∑ k : Fin 1024, lhs (ix2 r k) * rhs (ix2 c k) := by
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r c) ((contrEquiv1 dot_S512x1024_S1024x1024_S512x1024_1_1_0_0_n_n 1024 rfl rfl).symm k) = ix2 r k := funext fun a => Fin.ext (by
    match a with
    | ⟨0, _⟩ => exact lhs_row _ _
    | ⟨1, _⟩ => exact (lhs_pos _ _).trans hk)
  have er : dot_S512x1024_S1024x1024_S512x1024_1_1_0_0_n_n.rhsIdx (ix2 r c) ((contrEquiv1 dot_S512x1024_S1024x1024_S512x1024_1_1_0_0_n_n 1024 rfl rfl).symm k) = ix2 c k := funext fun a => Fin.ext (by
    match a with
    | ⟨0, _⟩ => exact rhs_row _ _
    | ⟨1, _⟩ => exact (rhs_pos _ _).trans hk)
  rw [el, er]

/-- The step at `(r, c)`: the accumulator's entry plus the run's dot product of activation row `r` with dequantized
    weight row `c`. -/
theorem step_apply (x0 : Vec Ideal S512x1024 .f32) (x1 : Vec Ideal S1024x1024 .i32) (x2 : Vec Ideal S1024x1 .f32)
    (acc : Vec Ideal S512x1024 .f32) (r : Fin 512) (c : Fin 1024) :
    k0_pay2 x0 x1 x2 acc (ix2 r c)
      = acc (ix2 r c) + ∑ k : Fin 1024, x0 (ix2 r k) * ((((x1 (ix2 c k)).toInt : ℝ) : EReal) * x2 (ix2 c (0 : Fin 1))) := by
  unfold k0_pay2
  simp only [shapeCast_self]
  refine (addf_apply _ _ (ix2 r c)).trans (congrArg (acc (ix2 r c) + ·) ?_)
  refine (product_apply _ _ r c).trans (Finset.sum_congr rfl fun k _ => ?_)
  show x0 (ix2 r k) * ((((x1 (ix2 c k)).toInt : ℝ) : EReal) * broadcastTo S1024x1024 x2 broadcasts_S1024x1_S1024x1024 (ix2 c k)) = _
  rw [Cert.LibColumns.broadcastTo_a1_ab_apply]

/-- The epilogue at `(r, c)`: the accumulator's entry plus the bias row's entry `c`. -/
theorem epilogue_apply (acc : Vec Ideal S512x1024 .f32) (brow : Vec Ideal S1x1024 .f32) (r : Fin 512) (c : Fin 1024) :
    k0_pay3 acc brow (ix2 r c) = acc (ix2 r c) + brow (ix2 (0 : Fin 1) c) := by
  unfold k0_pay3
  simp only [shapeCast_self]
  refine (addf_apply _ _ (ix2 r c)).trans (congrArg (acc (ix2 r c) + ·) ?_)
  exact broadcastTo_1b_ab_apply brow broadcasts_S1x1024_S512x1024 r c

end Cert.KernelIdeal.Payload

end
-- ==== Proof.Spec.lean ====
/-
  The quantized linear layer as one function of its arrays, in the two arrangements the two programs compute it in.

  With `x` an [8192, 4096] matrix of extended reals, `w` a [4096, 4096] matrix of 32-bit integers read signed, `s` a
  [4096, 1] column of per-output-row scales and `b` a [1, 4096] row of biases, the layer is

      y[a, o] = Σ_{k < 4096} x[a, k] · (w[o, k] · s[o]) + b[o].

  One program forms the 4096-term sum at once. The other cuts the contracted axis into four runs of 1024 and adds the four
  partial sums one after the other to a zero start. Over the extended reals addition is commutative and associative (no
  cancellation is needed, so infinite entries do no harm), hence the two are equal: `tiled_eq_flat`.
-/
import Idealize.ShloMosaic.PureOps.Ideal
import Idealize.ShloMosaic.PureOps.Ideal.Laws
import Idealize.ShloMosaic.Lib.ValueIdx

noncomputable section

open scoped BigOperators

namespace Cert.QLinear

open Idealize.ShloMosaic Idealize.ShloMosaic.ValueIdx

/-- Position `kk` of run `s` (taken mod 4) on the contracted axis: `1024·s + kk`. -/
def kpos (s : ℕ) (kk : Fin 1024) : Fin 4096 :=
  ⟨(s % 4) * 1024 + kk.val, by have := kk.isLt; have := Nat.mod_lt s (show 0 < 4 by decide); omega⟩

theorem kpos_val (s : ℕ) (kk : Fin 1024) : (kpos s kk).val = (s % 4) * 1024 + kk.val := rfl

/-! The grid runs over 16 row blocks × 4 column blocks × 4 runs, the run fastest: point `n` works on row block
    `n / 16`, column block `n / 4 mod 4`, run `n mod 4`. -/

/-- Row `r` of point `n`'s row block, in the [8192, ·] arrays: `512·(n / 16) + r`. -/
def rowAt (n : ℕ) (r : Fin 512) : Fin 8192 :=
  ⟨(n / 16 % 16) * 512 + r.val, by have := r.isLt; have := Nat.mod_lt (n / 16) (show 0 < 16 by decide); omega⟩

/-- Column `c` of point `n`'s column block, in the [·, 4096] arrays (a row of the weight matrix): `1024·(n / 4 mod 4) + c`. -/
def colAt (n : ℕ) (c : Fin 1024) : Fin 4096 :=
  ⟨(n / 4 % 4) * 1024 + c.val, by have := c.isLt; have := Nat.mod_lt (n / 4) (show 0 < 4 by decide); omega⟩

theorem rowAt_val (n : ℕ) (r : Fin 512) : (rowAt n r).val = (n / 16 % 16) * 512 + r.val := rfl
theorem colAt_val (n : ℕ) (c : Fin 1024) : (colAt n c).val = (n / 4 % 4) * 1024 + c.val := rfl

/-- Within one run of four consecutive points `4q, …, 4q + 3` the row and column blocks do not move, and the run index is
    the offset. -/
theorem rowAt_run (q j : ℕ) (hj : j < 4) (r : Fin 512) : rowAt (4 * q + j) r = rowAt (4 * q + 3) r :=
  Fin.ext (by rw [rowAt_val, rowAt_val]; omega)
theorem colAt_run (q j : ℕ) (hj : j < 4) (c : Fin 1024) : colAt (4 * q + j) c = colAt (4 * q + 3) c :=
  Fin.ext (by rw [colAt_val, colAt_val]; omega)
theorem kpos_run (q j : ℕ) (kk : Fin 1024) : kpos (4 * q + j) kk = kpos j kk :=
  Fin.ext (by rw [kpos_val, kpos_val]; omega)

/-- A sum over the contracted axis is the sum, over the four runs, of the sums over each run. -/
theorem sum_runs {M : Type*} [AddCommMonoid M] (f : Fin 4096 → M) :
    ∑ k : Fin 4096, f k = ∑ s ∈ Finset.range 4, ∑ kk : Fin 1024, f (kpos s kk) := by
  rw [Finset.sum_range, ← Equiv.sum_comp (finProdFinEquiv (m := 4) (n := 1024)) f, Fintype.sum_prod_type]
  refine Finset.sum_congr rfl fun s _ => Finset.sum_congr rfl fun kk _ => congrArg f (Fin.ext ?_)
  show kk.val + 1024 * s.val = (s.val % 4) * 1024 + kk.val
  have := s.isLt
  omega

variable (x : (⟨2, ![8192, 4096]⟩ : Shape).Idx → EReal) (w : (⟨2, ![4096, 4096]⟩ : Shape).Idx → BitVec 32)
  (s : (⟨2, ![4096, 1]⟩ : Shape).Idx → EReal) (b : (⟨2, ![1, 4096]⟩ : Shape).Idx → EReal)

/-- The term at contracted position `k` of output entry `(a, o)`: `x[a,k] · (w[o,k] · s[o])`. -/
def term (a : Fin 8192) (o : Fin 4096) (k : Fin 4096) : EReal :=
  x (ix2 a k) * ((((w (ix2 o k)).toInt : ℝ) : EReal) * s (ix2 o (0 : Fin 1)))

/-- The partial sum of run `r` at output entry `(a, o)`. -/
def runSum (r : ℕ) (a : Fin 8192) (o : Fin 4096) : EReal := ∑ kk : Fin 1024, term x w s a o (kpos r kk)

/-- The layer's entry `(a, o)` as the tiled program leaves it: the zero word, plus the four runs' partial sums, plus the
    bias. -/
def tiledAt (a : Fin 8192) (o : Fin 4096) : EReal :=
  (Ideal.ofBits .f32 0x00000000#32 + ∑ r ∈ Finset.range 4, runSum x w s r a o) + b (ix2 (0 : Fin 1) o)

/-- The layer's entry `(a, o)` with the contraction in one sum. -/
def flatAt (a : Fin 8192) (o : Fin 4096) : EReal := (∑ k : Fin 4096, term x w s a o k) + b (ix2 (0 : Fin 1) o)

/-- Regrouping the sum into four runs from a zero start does not change it. -/
theorem tiledAt_eq_flatAt (a : Fin 8192) (o : Fin 4096) : tiledAt x w s b a o = flatAt x w s b a o := by
  unfold tiledAt flatAt runSum
  rw [Ideal.ofBits_zero_f32, zero_add, ← sum_runs]

/-- The tiled form as an array. -/
def tiled : (⟨2, ![8192, 4096]⟩ : Shape).Idx → EReal := fun i => tiledAt x w s b (i 0) (i 1)

theorem tiled_ix2 (a : Fin 8192) (o : Fin 4096) : tiled x w s b (ix2 a o) = tiledAt x w s b a o := rfl

/-- What point `n` adds to the accumulator's entry `(r, c)`: the partial sum of its run at its rows and columns. -/
def addendAt (n : ℕ) (r : Fin 512) (c : Fin 1024) : EReal := runSum x w s n (rowAt n r) (colAt n c)

/-- The same over block indices. -/
def addend (n : ℕ) : (⟨2, ![512, 1024]⟩ : Shape).Idx → EReal := fun y => addendAt x w s n (y 0) (y 1)

theorem addend_ix2 (n : ℕ) (r : Fin 512) (c : Fin 1024) : addend x w s n (ix2 r c) = addendAt x w s n r c := rfl

/-- Inside the run that ends at point `4q + 3`, the point at offset `j` adds run `j`'s partial sum at that last point's
    rows and columns. -/
theorem addendAt_run (q j : ℕ) (hj : j < 4) (r : Fin 512) (c : Fin 1024) :
    addendAt x w s (4 * q + j) r c = runSum x w s j (rowAt (4 * q + 3) r) (colAt (4 * q + 3) c) := by
  unfold addendAt runSum
  rw [rowAt_run q j hj, colAt_run q j hj]
  exact Finset.sum_congr rfl fun kk _ => by rw [kpos_run]

end Cert.QLinear

end
-- ==== Proof.Blocks.lean ====
/-
  Where the blocks sit in their arrays, and what the arrays are.

  At grid point `t` — row block `t / 16`, column block `t / 4 mod 4`, run `t mod 4` — the body is handed: rows
  `512·(t/16) …` and columns `1024·(t mod 4) …` of the [8192, 4096] activations; rows `1024·(t/4 mod 4) …` and the same
  columns of the [4096, 4096] integer weights; the matching 1024 entries of the scale column and of the bias row; and it
  writes rows `512·(t/16) …`, columns `1024·(t/4 mod 4) …` of the [8192, 4096] result. The index maps are decided once
  over the 256 points; everything else is arithmetic on coordinates.

  Before the region three reshapes prepare the arrays: the activations [4, 2048, 4096] → [8192, 4096], the scales
  [4096] → [4096, 1], the biases [4096] → [1, 4096]; the weights are passed as they are.
-/
import proofs.«150036_j6133213299350_1_alg».proof.Proof.Gen.KernelIdeal.Frame
import proofs.«150036_j6133213299350_1_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.QLinear

variable {F : FTy → Type} [FloatOps F]
variable (m : (ℓ : Loc nD τ sig) → Buf (Elt F) ℓ)

/-- The five index maps at every grid point, in closed form. -/
theorem index_maps : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = 0
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

theorem point_lt (t : Fin cfg0.N) : t.val < 256 := lt_of_lt_of_eq t.isLt (show cfg0.N = 256 from N_0)

/-! ## The input blocks, entry by entry -/

/-- Entry `(r, k)` of the activation block at `t` is the activations' entry at `t`'s row `r` and run position `k`. -/
theorem act_block (c : Dev nD) (t : Fin cfg0.N) (r : Fin 512) (k : Fin 1024) :
    (iblk m c 0 t : Vec F S512x1024 .f32) (ix2 r k)
      = (V m c main_v0 : S8192x4096.Idx → Elt F .f32) (ix2 (rowAt t.val r) (kpos t.val k)) := by
  obtain ⟨e00, e01, -⟩ := index_maps t
  have hN := point_lt t
  unfold iblk
  rw [View.read_apply]
  show V m c main_v0 (((cfg0.win 0).blk t).view.emb (ix2 r k)) = _
  refine congrArg (V m c main_v0) (funext fun a => Fin.ext ?_)
  match a with
  | ⟨0, _⟩ => show win0_0.index t (0 : Fin 2) * 512 + 1 * r.val = (t.val / 16 % 16) * 512 + r.val; rw [e00]; omega
  | ⟨1, _⟩ => show win0_0.index t (1 : Fin 2) * 1024 + 1 * k.val = (t.val % 4) * 1024 + k.val; rw [e01]; omega

/-- Entry `(o, k)` of the weight block at `t` is the weights' entry at `t`'s column-block row `o` and run position `k`. -/
theorem weight_block (c : Dev nD) (t : Fin cfg0.N) (o : Fin 1024) (k : Fin 1024) :
    (iblk m c 1 t : Vec F S1024x1024 .i32) (ix2 o k)
      = (V m c main_arg1 : S4096x4096.Idx → Elt F .i32) (ix2 (colAt t.val o) (kpos t.val k)) := by
  obtain ⟨-, -, e10, e11, -⟩ := index_maps t
  have hN := point_lt t
  unfold iblk
  rw [View.read_apply]
  show V m c main_arg1 (((cfg0.win 1).blk t).view.emb (ix2 o k)) = _
  refine congrArg (V m c main_arg1) (funext fun a => Fin.ext ?_)
  match a with
  | ⟨0, _⟩ => show win0_1.index t (0 : Fin 2) * 1024 + 1 * o.val = (t.val / 4 % 4) * 1024 + o.val; rw [e10]; omega
  | ⟨1, _⟩ => show win0_1.index t (1 : Fin 2) * 1024 + 1 * k.val = (t.val % 4) * 1024 + k.val; rw [e11]; omega

/-- Entry `o` of the scale block at `t` is the scale column's entry at `t`'s column-block row `o`. -/
theorem scale_block (c : Dev nD) (t : Fin cfg0.N) (o : Fin 1024)  :
    (iblk m c 2 t : Vec F S1024x1 .f32) (ix2 o (0 : Fin 1))
      = (V m c main_v1 : S4096x1.Idx → Elt F .f32) (ix2 (colAt t.val o) (0 : Fin 1)) := by
  obtain ⟨-, -, -, -, e20, e21, -⟩ := index_maps t
  have hN := point_lt t
  unfold iblk
  rw [View.read_apply]
  show V m c main_v1 (((cfg0.win 2).blk t).view.emb (ix2 o (0 : Fin 1))) = _
  refine congrArg (V m c main_v1) (funext fun a => Fin.ext ?_)
  match a with
  | ⟨0, _⟩ => show win0_2.index t (0 : Fin 2) * 1024 + 1 * o.val = (t.val / 4 % 4) * 1024 + o.val; rw [e20]; omega
  | ⟨1, _⟩ => show win0_2.index t (1 : Fin 2) * 1 + 1 * 0 = 0; rw [e21]

/-- Entry `o` of the bias block at `t` is the bias row's entry at `t`'s column `o`. -/
theorem bias_block (c : Dev nD) (t : Fin cfg0.N)  (o : Fin 1024) :
    (iblk m c 3 t : Vec F S1x1024 .f32) (ix2 (0 : Fin 1) o)
      = (V m c main_v2 : S1x4096.Idx → Elt F .f32) (ix2 (0 : Fin 1) (colAt t.val o)) := by
  obtain ⟨-, -, -, -, -, -, e30, e31, -⟩ := index_maps t
  have hN := point_lt t
  unfold iblk
  rw [View.read_apply]
  show V m c main_v2 (((cfg0.win 3).blk t).view.emb (ix2 (0 : Fin 1) o)) = _
  refine congrArg (V m c main_v2) (funext fun a => Fin.ext ?_)
  match a with
  | ⟨0, _⟩ => show win0_3.index t (0 : Fin 2) * 1 + 1 * 0 = 0; rw [e30]
  | ⟨1, _⟩ => show win0_3.index t (1 : Fin 2) * 1024 + 1 * o.val = (t.val / 4 % 4) * 1024 + o.val; rw [e31]; omega

/-- Entry `(r, o)` of the result block at `t` sits in the result at `t`'s row `r` and column `o`. -/
theorem out_block_emb (t : Fin cfg0.N) (r : Fin 512) (o : Fin 1024) :
    ((cfg0.win 4).blk t).view.emb (ix2 r o) = (ix2 (rowAt t.val r) (colAt t.val o) : S8192x4096.Idx) := by
  obtain ⟨-, -, -, -, -, -, -, -, e40, e41⟩ := index_maps t
  have hN := point_lt t
  refine funext fun a => Fin.ext ?_
  match a with
  | ⟨0, _⟩ => show win0_4.index t (0 : Fin 2) * 512 + 1 * r.val = (t.val / 16 % 16) * 512 + r.val; rw [e40]; omega
  | ⟨1, _⟩ => show win0_4.index t (1 : Fin 2) * 1024 + 1 * o.val = (t.val / 4 % 4) * 1024 + o.val; rw [e41]; omega

/-! ## The arrays as the region finds them -/

/-- The activations, flattened to [8192, 4096]. -/
theorem acts_eq (c : Dev nD) : (V m c main_v0 : S8192x4096.Idx → Elt F .f32)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The scales, as a column. -/
theorem scales_eq (c : Dev nD) : (V m c main_v1 : S4096x1.Idx → Elt F .f32)
    = shapeCast S4096x1 (m ((c : Thread nD τ).loc main_arg2)) shapeCasts_S4096_S4096x1 := by
  show StableHlo.after hostOps0 (fun b => m (c, b)) (Proc.devRef .tc main_v1) = _
  after_results
  rfl

/-- The biases, as a row. -/
theorem biases_eq (c : Dev nD) : (V m c main_v2 : S1x4096.Idx → Elt F .f32)
    = shapeCast S1x4096 (m ((c : Thread nD τ).loc main_arg3)) shapeCasts_S4096_S1x4096 := by
  show StableHlo.after hostOps0 (fun b => m (c, b)) (Proc.devRef .tc main_v2) = _
  after_results
  rfl

end Cert.KernelIdeal.Blocks

end
-- ==== Proof.Accum.lean ====
/-
  The accumulator over a run of four points.

  The scratch buffer is reset at the first point of each run (points ≡ 0 mod 4) and stepped at the other three, so after
  point `4q + j` it holds the reset value stepped `j` times: a fold over the run. Read at an entry, the reset leaves
  "zero word + what the first point adds" and each step adds what its point adds, so after the last point of the run the
  entry `(r, c)` is the zero word plus the four runs' partial sums at that point's row `r` and column `c` — the sum in
  point order, which is the order the specification's tiled form uses.
-/
import proofs.«150036_j6133213299350_1_alg».proof.Proof.Pieces
import proofs.«150036_j6133213299350_1_alg».proof.Proof.Payload
import proofs.«150036_j6133213299350_1_alg».proof.Proof.Blocks
import proofs.«150036_j6133213299350_1_alg».proof.Proof.Spec

set_option maxRecDepth 16384

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.QLinear

variable (m : (ℓ : Loc nD τ sig) → Buf (Elt Ideal) ℓ) (c : Dev nD)

/-! The four arrays as the region finds them. -/
abbrev acts : S8192x4096.Idx → EReal := V m c main_v0
abbrev weights : S4096x4096.Idx → BitVec 32 := V m c main_arg1
abbrev scales : S4096x1.Idx → EReal := V m c main_v1
abbrev biases : S1x4096.Idx → EReal := V m c main_v2

/-- What the scratch holds after point `n`. -/
def acc (n : ℕ) (h : n < cfg0.N) : Vec Ideal S512x1024 .f32 := (outsAt0 m c n h).2

/-- One step at point `n`, applied to an accumulator. -/
def step (n : ℕ) (h : n < cfg0.N) (a : Vec Ideal S512x1024 .f32) : Vec Ideal S512x1024 .f32 :=
  k0_pay2 (iblk m c 0 ⟨n, h⟩) (iblk m c 1 ⟨n, h⟩) (iblk m c 2 ⟨n, h⟩) a

/-- The reset at point `n`: one step from the zero block. -/
def reset (n : ℕ) (h : n < cfg0.N) : Vec Ideal S512x1024 .f32 := step m c n h (k0_pay1 (F := Ideal))

theorem acc_congr (n n' : ℕ) (e : n = n') (h : n < cfg0.N) (h' : n' < cfg0.N) : acc m c n h = acc m c n' h' := by
  subst e; rfl

/-- At the first point of a run the scratch is the reset. -/
theorem acc_reset (n : ℕ) (h : n < cfg0.N) (h0 : n % 4 = 0) : acc m c n h = reset m c n h := by
  have h1 : ¬ n % 4 = 3 := by omega
  unfold acc reset step
  rw [outsAt0_A m c ⟨n, h⟩ h0 h1]
  dsimp only
  exact Pieces.scratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

/-- At every other point it is the step applied to what the point before left. -/
theorem acc_step (n : ℕ) (h : n + 1 < cfg0.N) (h0 : ¬(n + 1) % 4 = 0) :
    acc m c (n + 1) h = step m c (n + 1) h (acc m c n (Nat.lt_of_succ_lt h)) := by
  unfold acc step
  by_cases h1 : (n + 1) % 4 = 3
  · rw [outsAt0_C m c ⟨n + 1, h⟩ h0 h1]
    dsimp only
    exact Pieces.scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2
  · rw [outsAt0_B m c ⟨n + 1, h⟩ h0 h1]
    dsimp only
    exact Pieces.scratch_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2

/-- A step at point `n`, read at an entry: the accumulator's entry plus what point `n` adds there. -/
theorem step_apply (n : ℕ) (h : n < cfg0.N) (a : Vec Ideal S512x1024 .f32) (y : S512x1024.Idx) :
    step m c n h a y = a y + addend (acts m c) (weights m c) (scales m c) n y := by
  obtain ⟨r, o, rfl⟩ : ∃ (r : Fin 512) (o : Fin 1024), y = ix2 r o := ⟨y 0, y 1, eq_ix2 y⟩
  unfold step
  refine (Payload.step_apply (iblk m c 0 ⟨n, h⟩) (iblk m c 1 ⟨n, h⟩) (iblk m c 2 ⟨n, h⟩) a r o).trans
    (congrArg (a (ix2 r o) + ·) ?_)
  show _ = addendAt (acts m c) (weights m c) (scales m c) n r o
  unfold addendAt runSum term
  refine Finset.sum_congr rfl fun k _ => ?_
  rw [Blocks.act_block m c ⟨n, h⟩ r k, Blocks.weight_block m c ⟨n, h⟩ o k, Blocks.scale_block m c ⟨n, h⟩ o]

/-- The reset at an entry: the zero word plus what the point adds. -/
theorem reset_apply (n : ℕ) (h : n < cfg0.N) (y : S512x1024.Idx) :
    reset m c n h y = Ideal.ofBits .f32 0x00000000#32 + addend (acts m c) (weights m c) (scales m c) n y := by
  unfold reset
  rw [step_apply, Payload.zero_block_apply]

/-- After the last point `4q + 3` of a run the scratch's entry `(r, o)` is the zero word plus the four runs' partial
    sums at that point's row and column. -/
theorem acc_last (q : ℕ) (h : 4 * q + 3 < cfg0.N) (r : Fin 512) (o : Fin 1024) :
    acc m c (4 * q + 3) h (ix2 r o)
      = Ideal.ofBits .f32 0x00000000#32
        + ∑ j ∈ Finset.range 4, runSum (acts m c) (weights m c) (scales m c) j (rowAt (4 * q + 3) r) (colAt (4 * q + 3) o) := by
  rw [Pipeline.eq_accAt (acc m c) 4 (reset m c) (step m c) (acc_reset m c) (acc_step m c) q 3 (by decide) h,
    Pipeline.accAt_add_apply (reset m c) (step m c) (fun _ => Ideal.ofBits .f32 0x00000000#32)
      (addend (acts m c) (weights m c) (scales m c)) (4 * q) 3
      (fun hb i => reset_apply m c (4 * q) hb i) (fun n hn a i _ _ => step_apply m c n hn a i) 3 le_rfl h (ix2 r o)]
  refine congrArg (Ideal.ofBits .f32 0x00000000#32 + ·) (Finset.sum_congr rfl fun j hj => ?_)
  rw [addend_ix2, addendAt_run _ _ _ q j (Finset.mem_range.mp hj)]

/-- The same at any point that ends a run. -/
theorem acc_at_run_end (n : ℕ) (h : n < cfg0.N) (h3 : n % 4 = 3) (r : Fin 512) (o : Fin 1024) :
    acc m c n h (ix2 r o)
      = Ideal.ofBits .f32 0x00000000#32
        + ∑ j ∈ Finset.range 4, runSum (acts m c) (weights m c) (scales m c) j (rowAt n r) (colAt n o) := by
  obtain ⟨q, rfl⟩ : ∃ q, n = 4 * q + 3 := ⟨n / 4, by omega⟩
  exact acc_last m c q h r o

end Cert.KernelIdeal.Accum

end
-- ==== Proof.Final.lean ====
/-
  The tiled program's result.

  Only the last point of each run writes its output block back, and what it writes is "accumulator + bias row". With the
  accumulator's closed form this is, entry by entry, the tiled form of the layer at the block's place in the [8192, 4096]
  result. The 64 blocks written back (16 row blocks × 4 column blocks) tile the result, so the result array ends holding the
  tiled form; one reshape after the region makes it [4, 2048, 4096].
-/
import proofs.«150036_j6133213299350_1_alg».proof.Proof.Accum

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.QLinear Cert.KernelIdeal.Accum

variable (m : (ℓ : Loc nD τ sig) → Buf (Elt Ideal) ℓ) (ρ : Dev nD → PrngReg) (c : Dev nD)

/-- The [8192, 4096] result: the tiled form over the arrays as the region finds them. -/
abbrev result : S8192x4096.Idx → EReal := tiled (acts m c) (weights m c) (scales m c) (biases m c)

/-- At the last point of a run the output block is the epilogue of that point's accumulator. -/
theorem out_at_run_end (t : Fin cfg0.N) (h3 : t.val % 4 = 3) :
    (outsAt0 m c t.val t.isLt).1 = k0_pay3 (acc m c t.val t.isLt) (iblk m c 3 t) := by
  have h0 : ¬ t.val % 4 = 0 := by omega
  unfold acc
  rw [outsAt0_C m c t h0 h3]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t) (outsAt0 m c (t.val - 1) (Nat.lt_of_le_of_lt (Nat.sub_le _ _) t.isLt)).2).trans
    (congrArg (fun a => k0_pay3 a (iblk m c 3 t))
      (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t) (outsAt0 m c (t.val - 1) (Nat.lt_of_le_of_lt (Nat.sub_le _ _) t.isLt)).2).symm)

/-- What a flushing point writes back is its block of the result. -/
theorem flushed_eq (t : Fin cfg0.N) (hf : (cfg0.win 4).flush t = true) :
    (dats m 0 c).flushed 4 t = ((cfg0.win 4).blk t).view.read (Elt Ideal) (result m c) := by
  have h3 : t.val % 4 = 3 := (flush0_4 t).mp hf
  show (cfg0.win 4).cut (grid0.coords t) ((dats m 0 c).after 4 t) = _
  rw [after0_4, out_at_run_end m c t h3]
  funext y
  obtain ⟨r, o, rfl⟩ : ∃ (r : Fin 512) (o : Fin 1024), y = ix2 r o := ⟨y 0, y 1, eq_ix2 y⟩
  rw [View.read_apply, Blocks.out_block_emb t r o]
  show k0_pay3 (acc m c t.val t.isLt) (iblk m c 3 t) (ix2 r o) = tiledAt (acts m c) (weights m c) (scales m c) (biases m c) (rowAt t.val r) (colAt t.val o)
  rw [Payload.epilogue_apply, acc_at_run_end m c t.val t.isLt h3 r o, Blocks.bias_block m c t o]
  rfl

/-- An index of the result is in point `t`'s output block iff each coordinate is in the block's range. -/
theorem mem_out_block (t : Fin cfg0.N) (i : S8192x4096.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v3).slice (win0_4.rect t)).set ↔ _
  rw [View.set_slice_whole, Rect.mem_set_unit]
  exact Iff.rfl

/-- Every entry of the result is in the block some flushing point writes: row block `i₀ / 512`, column block
    `i₁ / 1024`, at the last point of that pair's run. -/
theorem covered (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 256 := N_0
  obtain ⟨n, hn⟩ : ∃ n, n = ((i 0).val / 512 * 4 + (i 1).val / 1024) * 4 + 3 := ⟨_, rfl⟩
  have hlt : n < cfg0.N := by rw [hN]; omega
  refine ⟨⟨n, hlt⟩, (flush0_4 _).mpr (by show n % 4 = 3; omega), ?_⟩
  rw [mem_out_block]
  obtain ⟨-, -, -, -, -, -, -, -, e40, e41⟩ := Blocks.index_maps (⟨n, hlt⟩ : Fin cfg0.N)
  intro a
  match a with
  | ⟨0, _⟩ =>
    show win0_4.index ⟨n, hlt⟩ (0 : Fin 2) * 512 ≤ (i 0).val ∧ (i 0).val < win0_4.index ⟨n, hlt⟩ (0 : Fin 2) * 512 + 512
    rw [e40]; show n / 16 * 512 ≤ (i 0).val ∧ (i 0).val < n / 16 * 512 + 512; omega
  | ⟨1, _⟩ =>
    show win0_4.index ⟨n, hlt⟩ (1 : Fin 2) * 1024 ≤ (i 1).val ∧ (i 1).val < win0_4.index ⟨n, hlt⟩ (1 : Fin 2) * 1024 + 1024
    rw [e41]; show n / 4 % 4 * 1024 ≤ (i 1).val ∧ (i 1).val < n / 4 % 4 * 1024 + 1024; omega

/-- So the result array ends holding the tiled form. -/
theorem final (c : Dev nD) : (dats m 0 c).arrAt 4 cfg0.N = result m c :=
  (dats m 0 c).arrAt_eq_of_cover 4 (result m c) (flushed_eq m c) (covered)

/-- The result restated over the launch contents of the four arguments: the reshapes before the region applied. -/
abbrev tiledOfArgs (c : Dev nD) : S8192x4096.Idx → EReal :=
  tiled (shapeCast S8192x4096 (m ((c : Thread nD τ).loc main_arg0)) shapeCasts_S4x2048x4096_S8192x4096)
    (m ((c : Thread nD τ).loc main_arg1))
    (shapeCast S4096x1 (m ((c : Thread nD τ).loc main_arg2)) shapeCasts_S4096_S4096x1)
    (shapeCast S1x4096 (m ((c : Thread nD τ).loc main_arg3)) shapeCasts_S4096_S1x4096)

theorem result_eq (c : Dev nD) : result m c = tiledOfArgs m c := by
  unfold result tiledOfArgs acts weights scales biases
  rw [Blocks.acts_eq m c, Blocks.scales_eq m c, Blocks.biases_eq m c, V_main_arg1 m c]

/-- After the region, the one reshape to [4, 2048, 4096] of the result array. -/
theorem tail_eq (c : Dev nD) :
    Pipeline.afterTail₀ cfgs (dats m) 0 (V0 m) [hostOps1] c main_v4
      = shapeCast S4x2048x4096 (tiledOfArgs m c) shapeCasts_S8192x4096_S4x2048x4096 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3)
      = tiledOfArgs m c :=
    (Pipeline.withArrays_arr spec0 launch0.win.arr_inj c _ _ 4).trans ((final m c).trans (result_eq m c))
  funext i
  show shapeCast S4x2048x4096 (Pipeline.withArrays (cfgs 0).spec c (V0 m c) (fun w => (dats m 0 c).arrAt w (cfgs 0).N)
    (Proc.tc.devRef main_v3)) shapeCasts_S8192x4096_S4x2048x4096 i = _
  rw [e]

/-- The tiled program's run: every weakly fair execution terminates with the result at the tiled form of the
    arguments' launch contents, reshaped to [4, 2048, 4096], and the arguments unchanged. -/
theorem run : θ_run defs (onTc (τ := τ) (main (F := Ideal))) ⟨m, fun _ => 0, ρ⟩ fun r => ∀ c : Dev nD,
      r.2.mem ((c.tc : Thread nD τ).loc main_v4) = shapeCast S4x2048x4096 (tiledOfArgs m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefIsSpec.lean ====
/-
  The reference computes the layer's flat form.

  Read at `(p, q, o)`, the reference's result is `Σ_k x[p,q,k] · (w[o,k] · scale[o]) + bias[o]`: its `dot_general`
  contracts the last axis of `x` with the second axis of the dequantized weights, and its two `broadcast_in_dim`s carry
  `scale[o]` along a row and `bias[o]` along the two leading axes. The tiled program instead works on `x` flattened to
  [8192, 4096] (row `2048·p + q`), on the scales as a [4096, 1] column and the biases as a [1, 4096] row, and its result
  is reshaped back; all of these reshapes keep row-major positions. So the tiled form over the reshaped arguments,
  reshaped back, is the reference's result — by the regrouping law of the specification.
-/
import proofs.«150036_j6133213299350_1_alg».proof.Proof.Gen.ReferenceIdeal.Read
import proofs.«150036_j6133213299350_1_alg».proof.Proof.Spec
import proofs.«150036_j6133213299350_1_alg».proof.Proof.LibColumns
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx

namespace Cert.ReferenceIdeal.Bridge

open Cert.ReferenceIdeal Cert.ReferenceIdeal.Read Cert.QLinear

/-- Row `2048·p + q` of the flattened activations. -/
def flatRow (p : Fin 4) (q : Fin 2048) : Fin 8192 := ⟨p.val * 2048 + q.val, by have := p.isLt; have := q.isLt; omega⟩

variable (x : (⟨3, ![4, 2048, 4096]⟩ : Shape).Idx → EReal) (w : (⟨2, ![4096, 4096]⟩ : Shape).Idx → BitVec 32)
  (sc bi : (⟨1, ![4096]⟩ : Shape).Idx → EReal)
  (hx : (⟨3, ![4, 2048, 4096]⟩ : Shape).ShapeCasts ⟨2, ![8192, 4096]⟩)
  (hs : (⟨1, ![4096]⟩ : Shape).ShapeCasts ⟨2, ![4096, 1]⟩)
  (hb : (⟨1, ![4096]⟩ : Shape).ShapeCasts ⟨2, ![1, 4096]⟩)
  (hy : (⟨2, ![8192, 4096]⟩ : Shape).ShapeCasts ⟨3, ![4, 2048, 4096]⟩)

/-- The flattened activations at row `2048·p + q` are the activations at `(p, q)`. -/
theorem acts_apply (p : Fin 4) (q : Fin 2048) (k : Fin 4096) :
    shapeCast ⟨2, ![8192, 4096]⟩ x hx (ix2 (flatRow p q) k) = x (ix3 p q k) := by
  refine shapeCast_apply x hx _ _ ?_
  rw [Shape.rowMajor_val_three, Shape.rowMajor_val_two]
  rfl

/-- A [8192, 4096] array reshaped to [4, 2048, 4096] reads, at `(p, q, o)`, its entry at row `2048·p + q`. -/
theorem unflatten_apply (y : (⟨2, ![8192, 4096]⟩ : Shape).Idx → EReal) (p : Fin 4) (q : Fin 2048) (o : Fin 4096) :
    shapeCast ⟨3, ![4, 2048, 4096]⟩ y hy (ix3 p q o) = y (ix2 (flatRow p q) o) := by
  refine shapeCast_apply y hy _ _ ?_
  rw [Shape.rowMajor_val_three, Shape.rowMajor_val_two]
  rfl

/-! The reference's composed index functions, on coordinates. -/
theorem lidx_eq (p : Fin 4) (q : Fin 2048) (o k : Fin 4096) : lidx_main_v4 (ix3 p q o) k = ix3 p q k :=
  funext fun a => by match a with | ⟨0, _⟩ => rfl | ⟨1, _⟩ => rfl | ⟨2, _⟩ => rfl
theorem ridx_eq (p : Fin 4) (q : Fin 2048) (o k : Fin 4096) : ridx_main_v4 (ix3 p q o) k = ix2 o k :=
  funext fun a => by match a with | ⟨0, _⟩ => rfl | ⟨1, _⟩ => rfl
theorem scale_idx_eq (o k : Fin 4096) : idx_main_v1 (idx_main_v2 (ix2 o k)) = ix1 o :=
  funext fun a => by match a with | ⟨0, _⟩ => rfl
theorem bias_idx_eq (p : Fin 4) (q : Fin 2048) (o : Fin 4096) : idx_main_v5 (idx_main_v6 (ix3 p q o)) = ix1 o :=
  funext fun a => by match a with | ⟨0, _⟩ => rfl

/-- The reference's result at `(p, q, o)`. -/
theorem reference_apply (p : Fin 4) (q : Fin 2048) (o : Fin 4096) :
    val_main_v7 (F := Ideal) x w sc bi (ix3 p q o)
      = (∑ k : Fin 4096, x (ix3 p q k) * ((((w (ix2 o k)).toInt : ℝ) : EReal) * sc (ix1 o))) + bi (ix1 o) := by
  rw [val_main_v7_apply, val_main_v4_apply, val_main_v6_apply, val_main_v5_apply, bias_idx_eq]
  refine congrArg (· + bi (ix1 o)) (Finset.sum_congr rfl fun k _ => ?_)
  rw [val_main_v3_apply, val_main_v0_apply, val_main_v2_apply, val_main_v1_apply, lidx_eq, ridx_eq, scale_idx_eq]
  rfl

/-- The tiled form over the reshaped arguments, reshaped back, is the reference's result. -/
theorem tiled_eq_reference :
    shapeCast ⟨3, ![4, 2048, 4096]⟩
        (tiled (shapeCast ⟨2, ![8192, 4096]⟩ x hx) w (shapeCast ⟨2, ![4096, 1]⟩ sc hs) (shapeCast ⟨2, ![1, 4096]⟩ bi hb)) hy
      = val_main_v7 (F := Ideal) x w sc bi := by
  funext i
  obtain ⟨p, q, o, rfl⟩ : ∃ (p : Fin 4) (q : Fin 2048) (o : Fin 4096), i = ix3 p q o := ⟨i 0, i 1, i 2, eq_ix3 i⟩
  rw [unflatten_apply, tiled_ix2, tiledAt_eq_flatAt, reference_apply]
  unfold flatAt term
  rw [shapeCast_a_1a_apply]
  refine congrArg (· + bi (ix1 o)) (Finset.sum_congr rfl fun k _ => ?_)
  rw [acts_apply, Cert.LibColumns.shapeCast_a_a1_apply]

end Cert.ReferenceIdeal.Bridge

end
-- ==== Proof.lean ====
/-
  A quantized linear layer, tiled, against its one-line reference: the two are equal over the extended reals.

  Both programs compute, for activations `x` [4, 2048, 4096], integer weights `w` [4096, 4096] read signed, per-row
  scales `s` [4096] and biases `b` [4096],

      y[p, q, o] = Σ_{k < 4096} x[p, q, k] · (w[o, k] · s[o]) + b[o].

  The reference forms the sum at once. The tiled program flattens `x` to [8192, 4096], walks a 16 × 4 × 4 grid of
  (row block, column block, run), keeps a [512, 1024] accumulator that it zeroes at the first run, adds one run's 1024
  products to at every run, and writes out with the bias added at the last run; rounding the operands of the matrix product
  to a 16-bit format is the identity over the extended reals. Equality therefore only needs that a finite sum may be
  regrouped into four consecutive runs started from zero — commutativity and associativity of addition, which hold at
  infinite entries too, so the finiteness of the inputs is never used.

  The pieces: `Spec` (the layer in both arrangements and the regrouping law), `Pieces` and `Payload` (what one grid point
  does, as values), `Blocks` (where the blocks sit), `Accum` (the accumulator over a run), `Final` (the result array and
  the tiled program's run), `RefIsSpec` (the reference is the flat form). No operation was rewritten on the way to the
  extended reals, so that conjunct is trivial.
-/
import proofs.«150036_j6133213299350_1_alg».proof.Defs
import proofs.«150036_j6133213299350_1_alg».proof.Proof.Gen.Kernel
import proofs.«150036_j6133213299350_1_alg».proof.Proof.Gen.Kernel.Skeleton
import proofs.«150036_j6133213299350_1_alg».proof.Proof.Gen.Kernel.Launch
import proofs.«150036_j6133213299350_1_alg».proof.Proof.Gen.Kernel.Points
import proofs.«150036_j6133213299350_1_alg».proof.Proof.Gen.Kernel.Frame
import proofs.«150036_j6133213299350_1_alg».proof.Proof.Gen.KernelIdeal
import proofs.«150036_j6133213299350_1_alg».proof.Proof.Gen.KernelIdeal.Skeleton
import proofs.«150036_j6133213299350_1_alg».proof.Proof.Gen.KernelIdeal.Launch
import proofs.«150036_j6133213299350_1_alg».proof.Proof.Gen.KernelIdeal.Points
import proofs.«150036_j6133213299350_1_alg».proof.Proof.Gen.KernelIdeal.Frame
import proofs.«150036_j6133213299350_1_alg».proof.Proof.Gen.ReferenceIdeal
import proofs.«150036_j6133213299350_1_alg».proof.Proof.Gen.ReferenceIdeal.Run
import proofs.«150036_j6133213299350_1_alg».proof.Proof.Gen.ReferenceIdeal.Read
import proofs.«150036_j6133213299350_1_alg».proof.Proof.Gen.Pre_finite_inputs
import proofs.«150036_j6133213299350_1_alg».proof.Proof.Final
import proofs.«150036_j6133213299350_1_alg».proof.Proof.RefIsSpec
import Idealize.ShloMosaic.Adequacy
import Idealize.ShloMosaic.Init

noncomputable section

namespace Cert.Proof

open Idealize.ShloMosaic Idealize.SL.Sem

/-- The three programs run to the end and leave their arguments alone. -/
theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the tiled program ends with the tiled form of the layer and the reference
    with the flat form: one array. -/
theorem algebraic : Cert.algebraic_KernelIdeal_ReferenceIdeal := by
  intro m ρ m' ρ' _ hagree
  refine ⟨fun c => shapeCast Cert.KernelIdeal.S4x2048x4096 (Cert.KernelIdeal.Final.tiledOfArgs m c)
    Cert.KernelIdeal.Facts₀.shapeCasts_S8192x4096_S4x2048x4096, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2]
  exact (Cert.ReferenceIdeal.Bridge.tiled_eq_reference _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
